-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x384x384 : Shape := ⟨4, ![8, 96, 384, 384]⟩
abbrev S96x384x384 : Shape := ⟨3, ![96, 384, 384]⟩
abbrev S_ : Shape := ⟨0, ![]⟩

class Facts : Prop where
  bcast_S_S8x96x384x384 : S_.BroadcastsInDim S8x96x384x384 (![] : Fin 0 → Fin S8x96x384x384.rank)
  reducesTo_S8x96x384x384_S_d0_1_2_3 : S8x96x384x384.ReducesTo [0, 1, 2, 3] S_
  h_S_ : 0 < S_.numel
  bcast_S_S96x384x384 : S_.BroadcastsInDim S96x384x384 (![] : Fin 0 → Fin S96x384x384.rank)
  reducesTo_S96x384x384_S_d0_1_2 : S96x384x384.ReducesTo [0, 1, 2] S_

variable [Facts]

def fn {F : FTy → Type} [FloatOps F] (main_arg0 : FVec F S8x96x384x384 .f32) (main_arg1 : FVec F S96x384x384 .f32) : IVec S_ 1 :=
  let main_v0 : FVec F S8x96x384x384 .f32 := Host.absf main_arg0
  let main_cst : FVec F S_ .f32 := constant S_ .f32 0x7F800000#32
  let main_v1 : FVec F S8x96x384x384 .f32 := broadcastInDim S8x96x384x384 ![] bcast_S_S8x96x384x384 main_cst
  let main_v2 : IVec S8x96x384x384 1 := cmpf .olt main_v0 main_v1
  let main_c : IVec S_ 1 := constantI S_ 1 1#1
  let main_v3 : IVec S_ 1 := (fun x v => Host.reduce IntOp.andi x v reducesTo_S8x96x384x384_S_d0_1_2_3 h_S_) main_v2 main_c
  let main_v4 : FVec F S96x384x384 .f32 := Host.absf main_arg1
  let main_cst_0 : FVec F S_ .f32 := constant S_ .f32 0x7F800000#32
  let main_v5 : FVec F S96x384x384 .f32 := broadcastInDim S96x384x384 ![] bcast_S_S96x384x384 main_cst_0
  let main_v6 : IVec S96x384x384 1 := cmpf .olt main_v4 main_v5
  let main_c_1 : IVec S_ 1 := constantI S_ 1 1#1
  let main_v7 : IVec S_ 1 := (fun x v => Host.reduce IntOp.andi x v reducesTo_S96x384x384_S_d0_1_2 h_S_) main_v6 main_c_1
  let main_v8 : IVec S_ 1 := andi main_v3 main_v7
  main_v8
-- ==== Kernel.lean ====
abbrev S8x96x384x384 : Shape := ⟨4, ![8, 96, 384, 384]⟩
abbrev S96x384x384 : Shape := ⟨3, ![96, 384, 384]⟩
abbrev S8x36864x384 : Shape := ⟨3, ![8, 36864, 384]⟩
abbrev S36864x384 : Shape := ⟨2, ![36864, 384]⟩
abbrev S4096x384 : Shape := ⟨2, ![4096, 384]⟩
abbrev S1x4096x384 : Shape := ⟨3, ![1, 4096, 384]⟩

abbrev nBuf : Space → Nat
  | .hbm => 6
  | .vmem => 6
  | .smem => 0
  | _ => 0

abbrev bufTy : (tb : Table) → Fin (tcTables nBuf tb) → BufTy
  | .hbm, ⟨0, _⟩ => ⟨S8x96x384x384, .f32⟩
  | .hbm, ⟨1, _⟩ => ⟨S96x384x384, .f32⟩
  | .hbm, ⟨2, _⟩ => ⟨S8x36864x384, .f32⟩
  | .hbm, ⟨3, _⟩ => ⟨S36864x384, .f32⟩
  | .hbm, ⟨4, _⟩ => ⟨S8x36864x384, .f32⟩
  | .hbm, ⟨5, _⟩ => ⟨S8x96x384x384, .f32⟩
  | .local _ .vmem, ⟨0, _⟩ => ⟨S4096x384, .f32⟩
  | .local _ .vmem, ⟨1, _⟩ => ⟨S4096x384, .f32⟩
  | .local _ .vmem, ⟨2, _⟩ => ⟨S1x4096x384, .f32⟩
  | .local _ .vmem, ⟨3, _⟩ => ⟨S1x4096x384, .f32⟩
  | .local _ .vmem, ⟨4, _⟩ => ⟨S1x4096x384, .f32⟩
  | .local _ .vmem, ⟨5, _⟩ => ⟨S1x4096x384, .f32⟩
  | _, _ => ⟨S8x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x96x384x384_S8x36864x384 : S8x96x384x384.ShapeCasts S8x36864x384
  shapeCasts_S96x384x384_S36864x384 : S96x384x384.ShapeCasts S36864x384
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  inb_S1x4096x384_S1x4096x384_0_0_0 : ∀ a, (![0, 0, 0] : Fin 3 → Nat) a + S1x4096x384.size a ≤ S1x4096x384.size a
  h_S1x4096x384 : 0 < S1x4096x384.numel
  shapeCasts_S1x4096x384_S1x4096x384 : S1x4096x384.ShapeCasts S1x4096x384
  shapeCasts_S4096x384_S1x4096x384 : S4096x384.ShapeCasts S1x4096x384
  shapeCasts_S8x36864x384_S8x96x384x384 : S8x36864x384.ShapeCasts S8x96x384x384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x384.size a ≤ S36864x384.size a
  hwx0_0 : ∀ i : grid0.Coords, EltTy.bits .f32 = 32 ∨ (Rect.block (s := S36864x384) S4096x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x384.size a ≤ S8x36864x384.size a
  hwx0_1 : ∀ i : grid0.Coords, EltTy.bits .f32 = 32 ∨ (Rect.block (s := S8x36864x384) S1x4096x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x384.size a ≤ S8x36864x384.size a
  hwx0_2 : ∀ i : grid0.Coords, EltTy.bits .f32 = 32 ∨ (Rect.block (s := S8x36864x384) S1x4096x384.size (cc0_transform_2 i) (hinb0_2 i)).WholeWords (EltTy.packing .f32)

variable [Facts₀]

abbrev win0_0 : Pipeline.Window sig grid0 :=
  Pipeline.Window.ofSpec (Memref.whole main_v1) S4096x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x96x384x384 : Shape := ⟨4, ![8, 96, 384, 384]⟩
abbrev S96x384x384 : Shape := ⟨3, ![96, 384, 384]⟩
abbrev S_ : Shape := ⟨0, ![]⟩
abbrev S1x96x384x384 : Shape := ⟨4, ![1, 96, 384, 384]⟩

abbrev nBuf : Space → Nat
  | .hbm => 19
  | .vmem => 0
  | .smem => 0
  | _ => 0

abbrev bufTy : (tb : Table) → Fin (tcTables nBuf tb) → BufTy
  | .hbm, ⟨0, _⟩ => ⟨S8x96x384x384, .f32⟩
  | .hbm, ⟨1, _⟩ => ⟨S96x384x384, .f32⟩
  | .hbm, ⟨2, _⟩ => ⟨S96x384x384, .f32⟩
  | .hbm, ⟨3, _⟩ => ⟨S96x384x384, .f32⟩
  | .hbm, ⟨4, _⟩ => ⟨S_, .f32⟩
  | .hbm, ⟨5, _⟩ => ⟨S96x384x384, .f32⟩
  | .hbm, ⟨6, _⟩ => ⟨S96x384x384, .f32⟩
  | .hbm, ⟨7, _⟩ => ⟨S_, .f32⟩
  | .hbm, ⟨8, _⟩ => ⟨S96x384x384, .f32⟩
  | .hbm, ⟨9, _⟩ => ⟨S96x384x384, .f32⟩
  | .hbm, ⟨10, _⟩ => ⟨S_, .f32⟩
  | .hbm, ⟨11, _⟩ => ⟨S96x384x384, .f32⟩
  | .hbm, ⟨12, _⟩ => ⟨S96x384x384, .i1⟩
  | .hbm, ⟨13, _⟩ => ⟨S1x96x384x384, .i1⟩
  | .hbm, ⟨14, _⟩ => ⟨S_, .f32⟩
  | .hbm, ⟨15, _⟩ => ⟨S8x96x384x384, .f32⟩
  | .hbm, ⟨16, _⟩ => ⟨S8x96x384x384, .f32⟩
  | .hbm, ⟨17, _⟩ => ⟨S8x96x384x384, .i1⟩
  | .hbm, ⟨18, _⟩ => ⟨S8x96x384x384, .f32⟩
  | _, _ => ⟨S8x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_call1_v0 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S_S96x384x384 : S_.BroadcastsInDim S96x384x384 (![] : Fin 0 → Fin S96x384x384.rank)
  bcast_S96x384x384_S1x96x384x384_1_2_3 : S96x384x384.BroadcastsInDim S1x96x384x384 (![1, 2, 3] : Fin 3 → Fin S1x96x384x384.rank)
  bcast_S_S8x96x384x384 : S_.BroadcastsInDim S8x96x384x384 (![] : Fin 0 → Fin S8x96x384x384.rank)
  bcast_S1x96x384x384_S8x96x384x384_0_1_2_3 : S1x96x384x384.BroadcastsInDim S8x96x384x384 (![0, 1, 2, 3] : Fin 4 → Fin S8x96x384x384.rank)

variable [Facts₀]

class Facts : Prop extends Facts₀ where

variable [Facts]
-- ==== Proof.Spec.lean ====
/-
  The function both programs compute, entry by entry, on the extended reals.

  For an activation array `x` of shape [8, 96, 384, 384] and a mask array of shape [96, 384, 384]
  the result at `(b, c, h, w)` is `max x[b,c,h,w] 0` where the gate of `mask[c,h,w]` is on and
  `x[b,c,h,w]` itself where it is off; the gate of a mask entry `u` is the bit of
  `1/2 ≤ 1 / (1 + e^(-u))`. The mask does not depend on the batch coordinate `b`.

  Nothing here needs a finite input: the function is a comparison, a maximum and a choice, and no
  law of arithmetic that fails at an infinity is used anywhere in this certificate.
-/
import Idealize.ShloMosaic.PureOps.Ideal
import Idealize.ShloMosaic.Lib.ValueIdx

noncomputable section

namespace Cert.GatedRelu

open Idealize.ShloMosaic Idealize.ShloMosaic.ValueIdx

/-- The single-precision word of `1.0` denotes the extended real `1`. -/
theorem one_word : Ideal.ofBits .f32 0x3F800000#32 = 1 := by
  simp [Ideal.ofBits, Ideal.ieee, -EReal.coe_mul]; norm_num

/-- The gate of one mask entry `u`: the bit of `1/2 ≤ 1 / (1 + e^(-u))`, the threshold being the
    value the word of `0.5` denotes. -/
def gate (u : EReal) : BitVec 1 :=
  Ideal.cmp .oge (Ideal.logistic u) (Ideal.ofBits .f32 0x3F000000#32)

/-- One entry of the result: `max v 0` where the gate bit is on, `v` where it is off (the zero
    being the value the all-zero word denotes). -/
def pick (g : BitVec 1) (v : EReal) : EReal :=
  Scalar.select g (max v (Ideal.ofBits .f32 0x00000000#32)) v

/-- The logistic function spelt as the quotient `1 / (1 + e^(-u))` with the numerator and the
    summand given as the word of `1.0`: the same extended real as `Ideal.logistic u`. -/
theorem logistic_spelt (u : EReal) :
    Ideal.div (Ideal.ofBits .f32 0x3F800000#32) (Ideal.ofBits .f32 0x3F800000#32 + Ideal.exp (-u))
      = Ideal.logistic u := by
  rw [one_word]; rfl

/-- The whole result as one function of the two argument arrays: entry `(b, c, h, w)` is chosen
    by the gate of mask entry `(c, h, w)`. -/
def gatedRelu (x : (⟨4, ![8, 96, 384, 384]⟩ : Shape).Idx → EReal)
    (mk : (⟨3, ![96, 384, 384]⟩ : Shape).Idx → EReal) :
    (⟨4, ![8, 96, 384, 384]⟩ : Shape).Idx → EReal :=
  fun i => pick (gate (mk (ix3 (n0 := 96) (n1 := 384) (n2 := 384) (i 1) (i 2) (i 3)))) (x i)

/-- The same function on the arrays re-laid as rows of width 384: an activation array of shape
    [8, 36864, 384] and a mask of shape [36864, 384]; entry `(b, r, w)` is chosen by the gate of
    mask entry `(r, w)`. -/
def gatedReluRows (x : (⟨3, ![8, 36864, 384]⟩ : Shape).Idx → EReal)
    (mk : (⟨2, ![36864, 384]⟩ : Shape).Idx → EReal) :
    (⟨3, ![8, 36864, 384]⟩ : Shape).Idx → EReal :=
  fun i => pick (gate (mk (ix2 (n0 := 36864) (n1 := 384) (i 1) (i 2)))) (x i)

end Cert.GatedRelu

end
-- ==== Proof.BodyEntry.lean ====
/-
  What the kernel body stores, entry by entry.

  At one grid point the body holds a [4096, 384] block of the mask rows and a [1, 4096, 384] block
  of the activation rows. It computes the gate bits on the mask block, gives them a leading unit
  axis, and stores, at entry `(0, r, w)`, `max v 0` or `v` by the bit of mask entry `(r, w)`,
  where `v` is the activation entry `(0, r, w)`. The two casts of a block to its own shape are
  identities.
-/
import proofs.«129633_g52536039965318_cont_9to1_m_1102_16_alg».proof.Proof.Gen.KernelIdeal.Skeleton
import proofs.«129633_g52536039965318_cont_9to1_m_1102_16_alg».proof.Proof.Spec
import Idealize.ShloMosaic.Lib.Pipeline.Value
import Idealize.ShloMosaic.Lib.ValueLayout

noncomputable section

namespace Cert.GatedRelu.Body

open Cert.KernelIdeal Cert.KernelIdeal.Gen
open Idealize.ShloMosaic Idealize.ShloMosaic.ValueIdx

/-- The stored block at entry `(0, r, w)`: chosen by the gate of mask-block entry `(r, w)` between
    `max v 0` and `v`, `v` the activation-block entry `(0, r, w)`. -/
theorem payload_entry (mrows : Vec Ideal S4096x384 .f32) (xrows : Vec Ideal S1x4096x384 .f32)
    (u : Fin 1) (r : Fin 4096) (w : Fin 384) :
    k0_pay1 (F := Ideal) mrows xrows (ix3 u r w)
      = pick (gate (mrows (ix2 r w))) (xrows (ix3 u r w)) := by
  unfold k0_pay1
  rw [shapeCast_self, shapeCast_self]
  show Scalar.select (shapeCast S1x4096x384
      (cmpf (F := Ideal) (φ := .f32) .oge (logistic (F := Ideal) (φ := .f32) mrows)
        (broadcast S4096x384 (Scalar.ofBits (F := Ideal) .f32 0x3F000000#32)))
      shapeCasts_S4096x384_S1x4096x384 (ix3 u r w)) _ _ = _
  rw [shapeCast_ab_1ab_apply]
  rfl

end Cert.GatedRelu.Body

end
-- ==== Proof.Blocks.lean ====
/-
  From what one grid point writes back to the whole array the region leaves.

  The grid has 9 × 8 = 72 points. At the point with coordinates `(k, b)` the mask window holds
  rows `4096·k … 4096·k + 4095` of the [36864, 384] mask, and the activation window and the output
  window hold the same rows of batch `b` of the [8, 36864, 384] arrays. So the block a point writes
  back is the restriction, to that batch and those rows, of ONE function of the two arrays as the
  region finds them: entry `(b, r, w)` is chosen by the gate of mask entry `(r, w)`. The 72 blocks
  tile the output array (row `r` of batch `b` lies in the block of the point `(r / 4096, b)`), so
  after the last point the array is that function everywhere.
-/
import proofs.«129633_g52536039965318_cont_9to1_m_1102_16_alg».proof.Proof.Gen.KernelIdeal.Frame
import proofs.«129633_g52536039965318_cont_9to1_m_1102_16_alg».proof.Proof.BodyEntry
import Idealize.ShloMosaic.Lib.Pipeline.Value

noncomputable section

namespace Cert.GatedRelu.Blocks

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The three windows' block positions at a point, decided over the 72 points: the mask window's
    row block is the output window's; the activation window sits exactly where the output window
    does; no window is split along the width; and the output's batch and row-block positions stay
    in range. -/
theorem block_positions : ∀ t : Fin cfg0.N,
    win0_0.index t (0 : Fin 2) = win0_2.index t (1 : Fin 3)
    ∧ win0_0.index t (1 : Fin 2) = 0
    ∧ win0_1.index t (0 : Fin 3) = win0_2.index t (0 : Fin 3)
    ∧ win0_1.index t (1 : Fin 3) = win0_2.index t (1 : Fin 3)
    ∧ win0_1.index t (2 : Fin 3) = 0
    ∧ win0_2.index t (2 : Fin 3) = 0 :=
  (by decide +kernel : ∀ t : Fin grid0.N, _)

/-- Every (batch, row block) pair is the output position of some point. -/
theorem every_block : ∀ (b : Fin 8) (k : Fin 9), ∃ t : Fin cfg0.N, win0_2.index t = ![b.val, k.val, 0] :=
  (by decide +kernel : ∀ (b : Fin 8) (k : Fin 9), ∃ t : Fin grid0.N, win0_2.index t = ![b.val, k.val, 0])

/-- What point `t` writes back is block `t` of the row-form function of the arrays the region finds. -/
theorem flushed_eq (c : Dev nD) (t : Fin cfg0.N) :
    (dats m 0 c).flushed 2 t
      = ((cfg0.win 2).blk t).view.read (Elt Ideal) (gatedReluRows (V m c main_v0) (V m c main_v1)) := by
  show (cfg0.win 2).cut (grid0.coords t) ((dats m 0 c).after 2 t) = _
  rw [after0_2]
  unfold out0_2
  rw [View.canon_unit_zero zeros3]
  simp only [View.ld_unit_zero (S := S4096x384) zeros2, View.ld_unit_zero (S := S1x4096x384) zeros3]
  obtain ⟨e0, e1, e2, e3, e4, e5⟩ := block_positions t
  funext j
  obtain ⟨u, r, w, rfl⟩ : ∃ (u : Fin 1) (r : Fin 4096) (w : Fin 384), j = ix3 u r w :=
    ⟨j 0, j 1, j 2, eq_ix3 j⟩
  show k0_pay1 (F := Ideal) (iblk m c 0 t) (iblk m c 1 t) (ix3 u r w)
    = pick (gate (V m c main_v1 (ix2 (n0 := 36864) (n1 := 384)
        ((((cfg0.win 2).blk t).view.emb (ix3 u r w)) 1) ((((cfg0.win 2).blk t).view.emb (ix3 u r w)) 2))))
      (V m c main_v0 (((cfg0.win 2).blk t).view.emb (ix3 u r w)))
  rw [Body.payload_entry]
  show pick (gate (V m c main_v1 (((cfg0.win 0).blk t).view.emb (ix2 r w))))
      (V m c main_v0 (((cfg0.win 1).blk t).view.emb (ix3 u r w))) = _
  have hmask : ((cfg0.win 0).blk t).view.emb (ix2 r w)
      = ix2 (n0 := 36864) (n1 := 384) ((((cfg0.win 2).blk t).view.emb (ix3 u r w)) 1)
          ((((cfg0.win 2).blk t).view.emb (ix3 u r w)) 2) := by
    funext a; apply Fin.ext
    match a with
    | ⟨0, _⟩ => show win0_0.index t (0 : Fin 2) * 4096 + 1 * r.val = win0_2.index t (1 : Fin 3) * 4096 + 1 * r.val; omega
    | ⟨1, _⟩ => show win0_0.index t (1 : Fin 2) * 384 + 1 * w.val = win0_2.index t (2 : Fin 3) * 384 + 1 * w.val; omega
  have hact : ((cfg0.win 1).blk t).view.emb (ix3 u r w) = ((cfg0.win 2).blk t).view.emb (ix3 u r w) := by
    funext a; apply Fin.ext
    match a with
    | ⟨0, _⟩ => show win0_1.index t (0 : Fin 3) * 1 + 1 * u.val = win0_2.index t (0 : Fin 3) * 1 + 1 * u.val; omega
    | ⟨1, _⟩ => show win0_1.index t (1 : Fin 3) * 4096 + 1 * r.val = win0_2.index t (1 : Fin 3) * 4096 + 1 * r.val; omega
    | ⟨2, _⟩ => show win0_1.index t (2 : Fin 3) * 384 + 1 * w.val = win0_2.index t (2 : Fin 3) * 384 + 1 * w.val; omega
  rw [hmask, hact]

/-- An entry of the output array lies in point `t`'s block iff each coordinate lies in the block's
    range on its axis. -/
theorem mem_blk (t : Fin cfg0.N) (i : S8x36864x384.Idx) :
    i ∈ ((cfg0.win 2).blk t).view.set ↔ ∀ a : Fin 3, win0_2.index t a * S1x4096x384.size a ≤ (i a).val
      ∧ (i a).val < win0_2.index t a * S1x4096x384.size a + S1x4096x384.size a := by
  show i ∈ ((View.whole main_v2).slice (win0_2.rect t)).set ↔ _
  rw [View.set_slice_whole, Rect.mem_set_unit]
  exact Iff.rfl

/-- The blocks tile the array: entry `(b, r, w)` lies in the block of the point whose output
    position is batch `b`, row block `r / 4096`. -/
theorem covered (i : S8x36864x384.Idx) :
    ∃ t : Fin cfg0.N, (cfg0.win 2).flush t = true ∧ i ∈ ((cfg0.win 2).blk t).view.set := by
  have hi0 : (i 0).val < 8 := (i 0).isLt
  have hi1 : (i 1).val < 36864 := (i 1).isLt
  have hi2 : (i 2).val < 384 := (i 2).isLt
  obtain ⟨t, ht⟩ := every_block ⟨(i 0).val, hi0⟩ ⟨(i 1).val / 4096, by omega⟩
  have q0 : win0_2.index t (0 : Fin 3) = (i 0).val := congrFun ht 0
  have q1 : win0_2.index t (1 : Fin 3) = (i 1).val / 4096 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 384 ≤ (i 2).val ∧ (i 2).val < win0_2.index t (2 : Fin 3) * 384 + 384; omega

/-- The output array after the last point: the row-form function of the two arrays the region
    finds, everywhere. -/
theorem final (c : Dev nD) :
    (dats m 0 c).arrAt 2 cfg0.N = gatedReluRows (V m c main_v0) (V m c main_v1) :=
  (dats m 0 c).arrAt_eq_of_cover 2 _ (fun t _ => flushed_eq m c t) covered

end Cert.GatedRelu.Blocks

end
-- ==== Proof.Relaid.lean ====
/-
  Re-laying the arrays as rows of width 384 and back changes nothing.

  The kernel's program views the activations [8, 96, 384, 384] as [8, 36864, 384] and the mask
  [96, 384, 384] as [36864, 384], row `r = 384·c + h`, applies the row-form function, and views the
  result [8, 36864, 384] as [8, 96, 384, 384] again. All three views keep row-major positions, so
  entry `(b, c, h, w)` of the final array is the row-form function at `(b, 384·c + h, w)`, whose
  mask entry `(384·c + h, w)` is mask entry `(c, h, w)` and whose activation entry is
  `(b, c, h, w)`: the specification.
-/
import proofs.«129633_g52536039965318_cont_9to1_m_1102_16_alg».proof.Proof.Spec
import Idealize.ShloMosaic.Lib.Pipeline.Value

noncomputable section

namespace Cert.GatedRelu

open Idealize.ShloMosaic Idealize.ShloMosaic.ValueIdx

/-- Row `384·c + h` of the 36864 rows. -/
def rowOf (c : Fin 96) (h : Fin 384) : Fin 36864 := ⟨c.val * 384 + h.val, by omega⟩

/-- The mask viewed as rows: row `384·c + h`, column `w` is mask entry `(c, h, w)`. -/
theorem mask_rows (mk : (⟨3, ![96, 384, 384]⟩ : Shape).Idx → EReal)
    (hm : (⟨3, ![96, 384, 384]⟩ : Shape).ShapeCasts ⟨2, ![36864, 384]⟩) (c : Fin 96) (h w : Fin 384) :
    shapeCast ⟨2, ![36864, 384]⟩ mk hm (ix2 (rowOf c h) w) = mk (ix3 c h w) :=
  shapeCast_apply mk hm _ _ (by
    rw [Shape.rowMajor_val_three, Shape.rowMajor_val_two]
    show (c.val * 384 + h.val) * 384 + w.val = (c.val * 384 + h.val) * 384 + w.val
    rfl)

/-- The activations viewed as rows: batch `b`, row `384·c + h`, column `w` is entry `(b, c, h, w)`. -/
theorem act_rows (x : (⟨4, ![8, 96, 384, 384]⟩ : Shape).Idx → EReal)
    (hx : (⟨4, ![8, 96, 384, 384]⟩ : Shape).ShapeCasts ⟨3, ![8, 36864, 384]⟩)
    (b : Fin 8) (c : Fin 96) (h w : Fin 384) :
    shapeCast ⟨3, ![8, 36864, 384]⟩ x hx (ix3 b (rowOf c h) w) = x (ix4 b c h w) :=
  shapeCast_apply x hx _ _ (by
    rw [Shape.rowMajor_val_four, Shape.rowMajor_val_three]
    show ((b.val * 96 + c.val) * 384 + h.val) * 384 + w.val = (b.val * 36864 + (c.val * 384 + h.val)) * 384 + w.val
    omega)

/-- A row-form array viewed with the channel and height axes apart: entry `(b, c, h, w)` is its
    entry at batch `b`, row `384·c + h`, column `w`. -/
theorem rows_apart (y : (⟨3, ![8, 36864, 384]⟩ : Shape).Idx → EReal)
    (ho : (⟨3, ![8, 36864, 384]⟩ : Shape).ShapeCasts ⟨4, ![8, 96, 384, 384]⟩)
    (b : Fin 8) (c : Fin 96) (h w : Fin 384) :
    shapeCast ⟨4, ![8, 96, 384, 384]⟩ y ho (ix4 b c h w) = y (ix3 b (rowOf c h) w) :=
  shapeCast_apply y ho _ _ (by
    rw [Shape.rowMajor_val_three, Shape.rowMajor_val_four]
    show (b.val * 36864 + (c.val * 384 + h.val)) * 384 + w.val = ((b.val * 96 + c.val) * 384 + h.val) * 384 + w.val
    omega)

/-- The row-form function of the re-laid arrays, laid back, is the specification. -/
theorem relaid_eq (x : (⟨4, ![8, 96, 384, 384]⟩ : Shape).Idx → EReal)
    (mk : (⟨3, ![96, 384, 384]⟩ : Shape).Idx → EReal)
    (hx : (⟨4, ![8, 96, 384, 384]⟩ : Shape).ShapeCasts ⟨3, ![8, 36864, 384]⟩)
    (hm : (⟨3, ![96, 384, 384]⟩ : Shape).ShapeCasts ⟨2, ![36864, 384]⟩)
    (ho : (⟨3, ![8, 36864, 384]⟩ : Shape).ShapeCasts ⟨4, ![8, 96, 384, 384]⟩) :
    shapeCast ⟨4, ![8, 96, 384, 384]⟩
        (gatedReluRows (shapeCast ⟨3, ![8, 36864, 384]⟩ x hx) (shapeCast ⟨2, ![36864, 384]⟩ mk hm)) ho
      = gatedRelu x mk := by
  funext i
  obtain ⟨b, c, h, w, rfl⟩ : ∃ (b : Fin 8) (c : Fin 96) (h w : Fin 384), i = ix4 b c h w :=
    ⟨i 0, i 1, i 2, i 3, eq_ix4 i⟩
  rw [rows_apart]
  show pick (gate (shapeCast ⟨2, ![36864, 384]⟩ mk hm (ix2 (rowOf c h) w)))
      (shapeCast ⟨3, ![8, 36864, 384]⟩ x hx (ix3 b (rowOf c h) w)) = _
  rw [mask_rows, act_rows]
  rfl

end Cert.GatedRelu

end
-- ==== Proof.KernelRun.lean ====
/-
  The kernel program's run, with its result named.

  Around the region the program has three host lines: before it the two views as rows (of the
  activations and of the mask), after it the view of the region's output with the channel and
  height axes apart. The region finds the two row views in its input arrays, leaves the row-form
  function of them in its output array, and the last line views that array back. So the program's
  result is the specification of the two argument arrays.
-/
import proofs.«129633_g52536039965318_cont_9to1_m_1102_16_alg».proof.Proof.Blocks
import proofs.«129633_g52536039965318_cont_9to1_m_1102_16_alg».proof.Proof.Relaid
import Idealize.ShloMosaic.Lib.StableHlo.Run

noncomputable section

namespace Cert.GatedRelu.Kernel

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The region finds, in its activation array, the argument activations viewed as rows. -/
theorem act_found (c : Dev nD) :
    (V m c main_v0 : S8x36864x384.Idx → EReal)
      = shapeCast S8x36864x384 (m ((c : Thread nD τ).loc main_arg0)) shapeCasts_S8x96x384x384_S8x36864x384 := by
  show StableHlo.after hostOps0 (fun b => m (c, b)) (Proc.devRef .tc main_v0) = _
  after_results
  rfl

/-- The region finds, in its mask array, the argument mask viewed as rows. -/
theorem mask_found (c : Dev nD) :
    (V m c main_v1 : S36864x384.Idx → EReal)
      = shapeCast S36864x384 (m ((c : Thread nD τ).loc main_arg1)) shapeCasts_S96x384x384_S36864x384 := by
  show StableHlo.after hostOps0 (fun b => m (c, b)) (Proc.devRef .tc main_v1) = _
  after_results
  rfl

/-- The line after the region views the region's output array with the channel and height axes apart. -/
theorem tail_result (c : Dev nD) :
    (Pipeline.afterTail₀ cfgs (dats m) 0 (V0 m) [hostOps1] c main_v3 : S8x96x384x384.Idx → EReal)
      = shapeCast S8x96x384x384 ((dats m 0 c).arrAt 2 cfg0.N) shapeCasts_S8x36864x384_S8x96x384x384 := by
  unfold Pipeline.afterTail₀
  show StableHlo.after hostOps1 _ (Proc.devRef .tc main_v3) = _
  after_results
  exact congrArg (fun y => shapeCast S8x96x384x384 y shapeCasts_S8x36864x384_S8x96x384x384)
    (Pipeline.withArrays_arr spec0 launch0.win.arr_inj c _ _ 2)

/-- The program's result after any run, as a function of the two argument arrays. -/
theorem result_eq (c : Dev nD) :
    (Pipeline.afterTail₀ cfgs (dats m) 0 (V0 m) [hostOps1] c main_v3 : S8x96x384x384.Idx → EReal)
      = gatedRelu (m ((c : Thread nD τ).loc main_arg0)) (m ((c : Thread nD τ).loc main_arg1)) := by
  rw [tail_result, Blocks.final, act_found, mask_found]
  exact relaid_eq _ _ _ _ _

/-- Every weakly fair execution of the kernel's program terminates, with no fault, its result the
    specification of the argument arrays and the argument arrays unchanged. -/
theorem run : θ_run defs (onTc (τ := τ) (main (F := Ideal))) ⟨m, fun _ => 0, ρ⟩ fun r => ∀ c : Dev nD,
      r.2.mem ((c : Thread nD τ).loc main_v3)
        = gatedRelu (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.GatedRelu.Kernel

end
-- ==== Proof.RefIsSpec.lean ====
/-
  The reference's result is the specification.

  Read at an entry `(b, c, h, w)` the reference chooses between `max x[b,c,h,w] 0` and
  `x[b,c,h,w]` by the bit `1/2 ≤ 1 / (1 + e^(-mask[c,h,w]))`: its comparison is computed once on the
  [96, 384, 384] mask, given a leading unit axis and repeated over the batch axis, so the bit used
  at `(b, c, h, w)` is the one of mask entry `(c, h, w)`. The quotient it spells out is the logistic
  function.
-/
import proofs.«129633_g52536039965318_cont_9to1_m_1102_16_alg».proof.Proof.Gen.ReferenceIdeal.Read
import proofs.«129633_g52536039965318_cont_9to1_m_1102_16_alg».proof.Proof.Spec

noncomputable section

namespace Cert.GatedRelu.Ref

open Cert.ReferenceIdeal Cert.ReferenceIdeal.Gen Cert.ReferenceIdeal.Read
open Idealize.ShloMosaic Idealize.ShloMosaic.ValueIdx

/-- Through the two repetitions (a new leading unit axis, then the batch axis) entry
    `(b, c, h, w)` of the repeated comparison reads entry `(c, h, w)` of the mask's. -/
theorem mask_entry (i : S8x96x384x384.Idx) :
    idx_main_v8 (idx_main_call1_v0 i) = ix3 (n0 := 96) (n1 := 384) (n2 := 384) (i 1) (i 2) (i 3) :=
  funext fun a => Fin.ext (by match a with | ⟨0, _⟩ => rfl | ⟨1, _⟩ => rfl | ⟨2, _⟩ => rfl)

/-- The reference's last stage, as a function of the two argument arrays, is `gatedRelu`. -/
theorem result_eq (x0 : (⟨S8x96x384x384, .f32⟩ : BufTy).Contents (Elt Ideal))
    (x1 : (⟨S96x384x384, .f32⟩ : BufTy).Contents (Elt Ideal)) :
    val_main_v10 (F := Ideal) x0 x1 = gatedRelu x0 x1 := by
  funext i
  rw [val_main_v10_apply, val_main_call1_v0_apply, val_main_v8_apply, val_main_v7_apply,
    val_main_v5_apply, val_main_v4_apply, val_main_cst_0_apply, val_main_v3_apply, val_main_v2_apply,
    val_main_cst_apply, val_main_v1_apply, val_main_v0_apply, val_main_v6_apply, val_main_cst_1_apply,
    val_main_v9_apply, val_main_call0_v0_apply, val_main_call0_cst_apply, mask_entry]
  show pick (Ideal.cmp .oge (Ideal.div (Ideal.ofBits .f32 0x3F800000#32)
      (Ideal.ofBits .f32 0x3F800000#32 + Ideal.exp (-(x1 (ix3 (n0 := 96) (n1 := 384) (n2 := 384) (i 1) (i 2) (i 3))))))
      (Ideal.ofBits .f32 0x3F000000#32)) (x0 i) = _
  rw [logistic_spelt]
  rfl

end Cert.GatedRelu.Ref

end
-- ==== Proof.lean ====
/-
  A gated rectifier on the extended reals: the kernel and its reference are one function.

  For activations `x` of shape [8, 96, 384, 384] and a mask of shape [96, 384, 384] both programs
  return, at `(b, c, h, w)`, `max x[b,c,h,w] 0` where `1/2 ≤ 1 / (1 + e^(-mask[c,h,w]))` and
  `x[b,c,h,w]` elsewhere (Proof/Spec.lean).

  The reference computes the comparison once on the mask, repeats it over the batch axis and
  chooses entry by entry; the quotient it spells out is the logistic function (Proof/RefIsSpec.lean).

  The kernel's program views both arrays as rows of width 384, runs a grid of 9 × 8 points, each
  writing 4096 rows of one batch (Proof/BodyEntry.lean: one stored entry; Proof/Blocks.lean: the 72
  blocks tile the output array, which ends as one function of the two row views), and views the
  output back (Proof/Relaid.lean: the three views keep row-major positions; Proof/KernelRun.lean: the
  program's run with its result named).

  No arithmetic law that fails at an infinity is used, so the precondition that the inputs are
  finite is never opened. The idealized kernel is the kernel's own text read on the extended
  reals: nothing was rewritten, and that conjunct is trivial. The three frame conjuncts are the
  generated frame runs.
-/
import proofs.«129633_g52536039965318_cont_9to1_m_1102_16_alg».proof.Defs
import proofs.«129633_g52536039965318_cont_9to1_m_1102_16_alg».proof.Proof.Gen.Kernel
import proofs.«129633_g52536039965318_cont_9to1_m_1102_16_alg».proof.Proof.Gen.Kernel.Frame
import proofs.«129633_g52536039965318_cont_9to1_m_1102_16_alg».proof.Proof.Gen.KernelIdeal
import proofs.«129633_g52536039965318_cont_9to1_m_1102_16_alg».proof.Proof.Gen.KernelIdeal.Frame
import proofs.«129633_g52536039965318_cont_9to1_m_1102_16_alg».proof.Proof.Gen.ReferenceIdeal
import proofs.«129633_g52536039965318_cont_9to1_m_1102_16_alg».proof.Proof.Gen.ReferenceIdeal.Run
import proofs.«129633_g52536039965318_cont_9to1_m_1102_16_alg».proof.Proof.Gen.ReferenceIdeal.Read
import proofs.«129633_g52536039965318_cont_9to1_m_1102_16_alg».proof.Proof.Gen.Pre_finite_inputs
import proofs.«129633_g52536039965318_cont_9to1_m_1102_16_alg».proof.Proof.KernelRun
import proofs.«129633_g52536039965318_cont_9to1_m_1102_16_alg».proof.Proof.RefIsSpec
import Idealize.ShloMosaic.Adequacy
import Idealize.ShloMosaic.Init

noncomputable section

namespace Cert.Proof

open Idealize.ShloMosaic Idealize.ShloMosaic.TcCoe Idealize.SL.Sem

/-- The kernel's program terminates without a fault and keeps its arguments. -/
theorem frame_kernel : Cert.frame_Kernel := fun m ρ _ => Cert.Kernel.Gen.frame m ρ

/-- So does the same program read on the extended reals. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2)
    (Cert.ReferenceIdeal.Value.run (F := Ideal) m ρ)

/-- Nothing of the kernel was rewritten to read it on the extended reals. -/
theorem preserves : Cert.preserves_Kernel_KernelIdeal := trivial

/-- From memories that agree on the two arguments both programs end with the specification of
    those arguments as their result. -/
theorem algebraic : Cert.algebraic_KernelIdeal_ReferenceIdeal := by
  intro m ρ m' ρ' _ hagree
  refine ⟨_, Cert.GatedRelu.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.GatedRelu.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
